-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000000x1 : Shape := ⟨2, ![20000000, 1]⟩
abbrev S_ : Shape := ⟨0, ![]⟩

class Facts : Prop where
  bcast_S_S20000000x1 : S_.BroadcastsInDim S20000000x1 (![] : Fin 0 → Fin S20000000x1.rank)
  reducesTo_S20000000x1_S_d0_1 : S20000000x1.ReducesTo [0, 1] S_
  h_S_ : 0 < S_.numel

variable [Facts]

def fn {F : FTy → Type} [FloatOps F] (main_arg0 : FVec F S20000000x1 .f32) (main_arg1 : FVec F S20000000x1 .f32) : IVec S_ 1 :=
  let main_v0 : FVec F S20000000x1 .f32 := Host.absf main_arg0
  let main_cst : FVec F S_ .f32 := constant S_ .f32 0x7F800000#32
  let main_v1 : FVec F S20000000x1 .f32 := broadcastInDim S20000000x1 ![] bcast_S_S20000000x1 main_cst
  let main_v2 : IVec S20000000x1 1 := cmpf .olt main_v0 main_v1
  let main_c : IVec S_ 1 := constantI S_ 1 1#1
  let main_v3 : IVec S_ 1 := (fun x v => Host.reduce IntOp.andi x v reducesTo_S20000000x1_S_d0_1 h_S_) main_v2 main_c
  let main_v4 : FVec F S20000000x1 .f32 := Host.absf main_arg1
  let main_cst_0 : FVec F S_ .f32 := constant S_ .f32 0x7F800000#32
  let main_v5 : FVec F S20000000x1 .f32 := broadcastInDim S20000000x1 ![] bcast_S_S20000000x1 main_cst_0
  let main_v6 : IVec S20000000x1 1 := cmpf .olt main_v4 main_v5
  let main_c_1 : IVec S_ 1 := constantI S_ 1 1#1
  let main_v7 : IVec S_ 1 := (fun x v => Host.reduce IntOp.andi x v reducesTo_S20000000x1_S_d0_1 h_S_) main_v6 main_c_1
  let main_v8 : IVec S_ 1 := andi main_v3 main_v7
  main_v8
-- ==== Kernel.lean ====
abbrev S20000000x1 : Shape := ⟨2, ![20000000, 1]⟩
abbrev S20000000 : Shape := ⟨1, ![20000000]⟩
abbrev S_ : Shape := ⟨0, ![]⟩
abbrev S20447232 : Shape := ⟨1, ![20447232]⟩
abbrev S159744x128 : Shape := ⟨2, ![159744, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩

abbrev nBuf : Space → Nat
  | .hbm => 17
  | .vmem => 5
  | .smem => 0
  | _ => 0

abbrev bufTy : (tb : Table) → Fin (tcTables nBuf tb) → BufTy
  | .hbm, ⟨0, _⟩ => ⟨S20000000x1, .f32⟩
  | .hbm, ⟨1, _⟩ => ⟨S20000000x1, .f32⟩
  | .hbm, ⟨2, _⟩ => ⟨S20000000, .f32⟩
  | .hbm, ⟨3, _⟩ => ⟨S20000000, .f32⟩
  | .hbm, ⟨4, _⟩ => ⟨S_, .i32⟩
  | .hbm, ⟨5, _⟩ => ⟨S_, .f32⟩
  | .hbm, ⟨6, _⟩ => ⟨S20447232, .f32⟩
  | .hbm, ⟨7, _⟩ => ⟨S_, .i32⟩
  | .hbm, ⟨8, _⟩ => ⟨S_, .f32⟩
  | .hbm, ⟨9, _⟩ => ⟨S20447232, .f32⟩
  | .hbm, ⟨10, _⟩ => ⟨S159744x128, .f32⟩
  | .hbm, ⟨11, _⟩ => ⟨S159744x128, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x1, .f32⟩
  | _, _ => ⟨S20000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![39], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S20000000x1_S20000000 : S20000000x1.ShapeCasts S20000000
  pads_S20000000_S20447232_04472320 : S20000000.Pads (![0] : Fin 1 → Nat) ![447232] ![0] S20447232
  h_S_ : 0 < S_.numel
  shapeCasts_S20447232_S159744x128 : S20447232.ShapeCasts S159744x128
  inb_S1x1_S1x1_0_0 : ∀ a, (![0, 0] : Fin 2 → Nat) a + S1x1.size a ≤ S1x1.size a
  h_S1x1 : 0 < S1x1.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S159744x128.size a
  hwx0_0 : ∀ i : grid0.Coords, EltTy.bits .f32 = 32 ∨ (Rect.block (s := S159744x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S159744x128.size a
  hwx0_1 : ∀ i : grid0.Coords, EltTy.bits .f32 = 32 ∨ (Rect.block (s := S159744x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v4) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S20000000x1 : Shape := ⟨2, ![20000000, 1]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S20000000x1, .f32⟩
  | .hbm, ⟨1, _⟩ => ⟨S20000000x1, .f32⟩
  | .hbm, ⟨2, _⟩ => ⟨S20000000x1, .f32⟩
  | .hbm, ⟨3, _⟩ => ⟨S_, .f32⟩
  | .hbm, ⟨4, _⟩ => ⟨S20000000x1, .f32⟩
  | .hbm, ⟨5, _⟩ => ⟨S20000000x1, .i1⟩
  | .hbm, ⟨6, _⟩ => ⟨S_, .f32⟩
  | .hbm, ⟨7, _⟩ => ⟨S20000000x1, .f32⟩
  | .hbm, ⟨8, _⟩ => ⟨S20000000x1, .i1⟩
  | .hbm, ⟨9, _⟩ => ⟨S_, .f32⟩
  | .hbm, ⟨10, _⟩ => ⟨S_, .f32⟩
  | .hbm, ⟨11, _⟩ => ⟨S20000000x1, .f32⟩
  | .hbm, ⟨12, _⟩ => ⟨S20000000x1, .f32⟩
  | .hbm, ⟨13, _⟩ => ⟨S20000000x1, .f32⟩
  | .hbm, ⟨14, _⟩ => ⟨S_, .f32⟩
  | .hbm, ⟨15, _⟩ => ⟨S20000000x1, .f32⟩
  | .hbm, ⟨16, _⟩ => ⟨S20000000x1, .f32⟩
  | .hbm, ⟨17, _⟩ => ⟨S20000000x1, .f32⟩
  | .hbm, ⟨18, _⟩ => ⟨S20000000x1, .f32⟩
  | .hbm, ⟨19, _⟩ => ⟨S20000000x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S20000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_3 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_cst_5 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]

class Facts₀ : Prop where
  bcast_S_S20000000x1 : S_.BroadcastsInDim S20000000x1 (![] : Fin 0 → Fin S20000000x1.rank)
  reducesTo_S20000000x1_S_d0_1 : S20000000x1.ReducesTo [0, 1] S_
  h_S_ : 0 < S_.numel

variable [Facts₀]

class Facts : Prop extends Facts₀ where

variable [Facts]
-- ==== Proof.Pieces.lean ====
/-
  What each control case of the body leaves in the accumulator's one-entry staging buffer, as a value. At the first grid
  point the body first stores zero, reads it back, and stores the point's total over it; at every later point it reads
  what the point before left and stores that plus the point's total. Either way the buffer ends at the body's second
  payload of the target block, the input block and the entry it read back.
-/
import proofs.«167799_j43293270343860_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem zero_offsets : (![0, 0] : Fin 2 → Nat) = fun _ => 0 := funext fun a => by fin_cases a <;> rfl

/-- A LATER POINT: over the entry `xo` the point before left, the body stores its second payload of the target block
    `x1`, the input block `x0` and `xo`. -/
theorem out_later (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (hc : ¬cond0_0 i) (x0 x1 : Vec F S4096x128 .f32) (xo : Vec F S1x1 .f32) :
    out0_B_2 c i a1 h1 a2 h2 a3 h3 hc x0 x1 xo = k0_pay2 x1 x0 xo := by
  unfold out0_B_2
  rw [View.read_writes_eq_canon _ _ _ (cover0_B_2 c i a1 h1 a2 h2 a3 h3 hc x0 x1 xo)]
  unfold kernelRun0_B
  dsimp only
  rw [View.canon_unit_zero zero_offsets]
  simp only [View.readAt_eq_ld, h1.read_unread, h2.read_unread, h3.read_unread, View.ld_unit_zero (S := S4096x128) zero_offsets,
    View.ld_unit_zero (S := S1x1) zero_offsets]

/-- THE FIRST POINT: the body stores the zero entry, reads it back, and stores its second payload of the target block
    `x1`, the input block `x0` and that zero entry. -/
theorem out_first (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (hc : cond0_0 i) (x0 x1 : Vec F S4096x128 .f32) :
    out0_A_2 c i a1 h1 a2 h2 a3 h3 hc x0 x1 = k0_pay2 x1 x0 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) zero_offsets, View.readCov_unit_zero (S := S1x1) _ zero_offsets]
  simp only [View.readAt_eq_ld, h1.read_unread, h2.read_unread, View.ld_unit_zero (S := S4096x128) zero_offsets]

end Cert.KernelIdeal.Pieces

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.Weighted.lean ====
/-
  The loss summed by both programs, one row at a time: for an input `a` and a target `b` the difference `d = b - a`
  is weighted by 1.5 where `d ≥ 3`, by 2 where `d < 0` and by 1 elsewhere, and the weighted difference is squared.
  Stated once over any float values, so that the kernel's lane-wise body and the reference's whole-array operations
  both read, at an index, as this one function of the two entries there. On the extended reals a pair of zeros
  contributes zero, whatever the weight: `0 - 0 = 0` and `0 · w = 0` for every `w`, infinite ones included.
-/
import Idealize.ShloMosaic.PureOps.Ideal
import Idealize.ShloMosaic.PureOps.Ideal.Laws

noncomputable section

namespace Cert.Loss

open Idealize.ShloMosaic

variable {F : FTy → Type} [FloatOps F]

/-- The weight of a difference `d`: 1.5 from 3 upwards, 2 below zero, 1 between. -/
def weight (d : F .f32) : F .f32 :=
  Scalar.select (FloatOps.cmpf .oge d (FloatOps.ofBits .f32 0x40400000#32)) (FloatOps.ofBits .f32 0x3FC00000#32)
    (Scalar.select (FloatOps.cmpf .olt d (FloatOps.ofBits .f32 0x00000000#32)) (FloatOps.ofBits .f32 0x40000000#32)
      (FloatOps.ofBits .f32 0x3F800000#32))

/-- The weighted squared difference of an input `a` and a target `b`: `((b - a) · weight (b - a))²`. -/
def wsq (a b : F .f32) : F .f32 :=
  FloatOps.mulf (FloatOps.mulf (FloatOps.subf b a) (weight (FloatOps.subf b a)))
    (FloatOps.mulf (FloatOps.subf b a) (weight (FloatOps.subf b a)))

/-- Two zeros contribute zero: the difference is `0`, and `0` times any extended real is `0`. -/
theorem wsq_zero : wsq (F := Ideal) (0 : EReal) (0 : EReal) = (0 : EReal) := by
  show ((0 : EReal) - 0) * _ * (((0 : EReal) - 0) * _) = 0
  rw [sub_zero, zero_mul, zero_mul]

end Cert.Loss

end
-- ==== Proof.Payload.lean ====
/-
  What one grid point adds. The body subtracts the input block from the target block lane by lane, weights and squares
  the difference, sums every row of 128 lanes, sums the 4096 row sums, and adds the total to the one-entry accumulator.
  Read at the extended reals, where each reduction is a plain finite sum, the stored entry is the accumulator's entry plus
  the double sum over rows and lanes of the weighted squared difference of the two blocks' entries.
-/
import proofs.«167799_j43293270343860_1_alg».proof.Proof.Gen.KernelIdeal.Skeleton
import proofs.«167799_j43293270343860_1_alg».proof.Proof.LibLayout
import proofs.«167799_j43293270343860_1_alg».proof.Proof.Weighted
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Loss Cert.Attn.Layout

/-- The weighted squared differences of a target block `x1` and an input block `x0`, lane by lane. -/
def sqBlock (x1 x0 : FVec Ideal S4096x128 .f32) : FVec Ideal S4096x128 .f32 := fun i => wsq (F := Ideal) (x0 i) (x1 i)

/-- The one entry of a `[1]` array cast to `[1, 1]` is the operand's one entry. -/
theorem cast_1_11_apply (v : S1.Idx → EReal) (y : S1x1.Idx) :
    shapeCast S1x1 v shapeCasts_S1_S1x1 y = v (ix1 (0 : Fin 1)) :=
  shapeCast_apply v shapeCasts_S1_S1x1 y (ix1 (0 : Fin 1)) (by
    rw [Shape.rowMajor_val_one, Shape.rowMajor_val_two]
    have h0 := idx2_lt0 y
    have h1 := idx2_lt1 y
    show 0 = (y 0).val * 1 + (y 1).val
    omega)

/-- The sum of all 4096 row sums of a block: the double sum over rows and lanes. -/
theorem total_apply (w : FVec Ideal S4096x128 .f32) (j : S1.Idx) :
    multiReduction .add [0] S1
      (shapeCast S4096x1 (multiReduction .add [1] S4096 w 0x00000000#32 reduces_S4096x128_S4096 (.inl rfl) rfl) shapeCasts_S4096_S4096x1)
      0x00000000#32 reduces_S4096x1_S1 (.inl rfl) rfl j
    = ∑ r : Fin 4096, ∑ k : Fin 128, w (ix2 r k) := by
  refine (Ideal.multiReduction_add_total _ 0x00000000#32 reduces_S4096x1_S1 (fun b => by fin_cases b; rfl) (.inl rfl) rfl j).trans ?_
  refine (sum_idx2 _).trans ?_
  refine Finset.sum_congr rfl fun r _ => ?_
  rw [Fin.sum_univ_one]
  refine (shapeCast_a_a1_apply _ shapeCasts_S4096_S4096x1 r (0 : Fin 1)).trans ?_
  exact rowSum_apply w reduces_S4096x128_S4096 (.inl rfl) rfl r

/-- THE PAYLOAD: over a target block `x1`, an input block `x0` and the accumulator `acc`, the body stores
    `acc + ∑ rows ∑ lanes ((x1 - x0) · weight)²`. -/
theorem pay2_apply (x1 x0 : Vec Ideal S4096x128 .f32) (acc : Vec Ideal S1x1 .f32) (y : S1x1.Idx) :
    k0_pay2 (F := Ideal) x1 x0 acc y
      = acc y + ∑ r : Fin 4096, ∑ k : Fin 128, wsq (F := Ideal) (x0 (ix2 r k)) (x1 (ix2 r k)) := by
  unfold k0_pay2
  simp only [shapeCast_self]
  show acc y + shapeCast S1x1 (multiReduction .add [0] S1
      (shapeCast S4096x1 (multiReduction .add [1] S4096 (sqBlock x1 x0) 0x00000000#32 reduces_S4096x128_S4096 (.inl rfl) rfl) shapeCasts_S4096_S4096x1)
      0x00000000#32 reduces_S4096x1_S1 (.inl rfl) rfl) shapeCasts_S1_S1x1 y = _
  refine congrArg (acc y + ·) ?_
  refine (cast_1_11_apply _ y).trans ?_
  exact total_apply (sqBlock x1 x0) _

/-- The reset stores the zero entry. -/
theorem pay1_apply (y : S1x1.Idx) : k0_pay1 (F := Ideal) y = (0 : EReal) := by
  show Ideal.ofBits .f32 0x00000000#32 = 0
  exact Ideal.ofBits_zero_f32

end Cert.KernelIdeal.Payload

end
-- ==== Proof.Padded.lean ====
/-
  The laid-out operand of the kernel. Each `[20000000, 1]` argument is flattened, padded with 447232 zeros to
  20447232 = 159744 · 128 entries, and cut into 159744 rows of 128 lanes. Row `R`, lane `k` of the result is entry
  `R · 128 + k` of the flattened argument when that number is below 20000000, and zero from there on.
-/
import proofs.«167799_j43293270343860_1_alg».proof.KernelIdeal
import Idealize.ShloMosaic.Lib.KernelVsHost
import Idealize.ShloMosaic.Lib.ValueIdx
import Idealize.ShloMosaic.Lib.Pipeline.Value
import Idealize.ShloMosaic.PureOps.Ideal.Laws

noncomputable section

namespace Cert.KernelIdeal.Padded

open Cert.KernelIdeal Idealize.ShloMosaic Idealize.ShloMosaic.ValueIdx

/-- An argument column continued by zeros: entry `j` below 20000000, zero from there on. -/
def padded (x : S20000000x1.Idx → EReal) (j : ℕ) : EReal :=
  if h : j < 20000000 then x (ix2 (⟨j, h⟩ : Fin 20000000) (0 : Fin 1)) else 0

theorem padded_of_le (x : S20000000x1.Idx → EReal) (j : ℕ) (h : 20000000 ≤ j) : padded x j = 0 :=
  dif_neg (Nat.not_lt.mpr h)

theorem padded_of_lt (x : S20000000x1.Idx → EReal) (j : Fin 20000000) : padded x j.val = x (ix2 j (0 : Fin 1)) :=
  dif_pos j.isLt

variable [Facts]
open Facts₀ Facts

/-- The argument flattened, padded with the converted integer zero, and cut into rows of 128 lanes. -/
def laid (x : FVec Ideal S20000000x1 .f32) : FVec Ideal S159744x128 .f32 :=
  shapeCast S159744x128
    (pad S20447232 ![0] ![447232] ![0] (shapeCast S20000000 x shapeCasts_S20000000x1_S20000000)
      (sitofp (F := Ideal) .f32 (constantI S_ 32 0#32)) pads_S20000000_S20447232_04472320 h_S_)
    shapeCasts_S20447232_S159744x128

/-- Row `R`, lane `k` of the laid-out operand is the padded column at `R · 128 + k`. -/
theorem laid_apply (x : FVec Ideal S20000000x1 .f32) (R : Fin 159744) (k : Fin 128) :
    laid x (ix2 R k) = padded x (R.val * 128 + k.val) := by
  have hb : R.val * 128 + k.val < 20447232 := by have := R.isLt; have := k.isLt; omega
  unfold laid
  refine (shapeCast_apply _ shapeCasts_S20447232_S159744x128 (ix2 R k) (ix1 (⟨R.val * 128 + k.val, hb⟩ : Fin 20447232)) (by
    rw [Shape.rowMajor_val_one, Shape.rowMajor_val_two]; rfl)).trans ?_
  by_cases h : R.val * 128 + k.val < 20000000
  · refine (pad_apply_of_inside (s := S20000000) (t := S20447232) ![0] ![447232] ![0] _ _ pads_S20000000_S20447232_04472320 h_S_ _
      (ix1 (⟨R.val * 128 + k.val, h⟩ : Fin 20000000)) (fun a => by
        fin_cases a
        show R.val * 128 + k.val = 0 + (R.val * 128 + k.val) * (0 + 1)
        omega)).trans ?_
    refine (shapeCast_apply x shapeCasts_S20000000x1_S20000000 _ (ix2 (⟨R.val * 128 + k.val, h⟩ : Fin 20000000) (0 : Fin 1)) (by
      rw [Shape.rowMajor_val_one, Shape.rowMajor_val_two]
      show (R.val * 128 + k.val) * 1 + 0 = R.val * 128 + k.val
      omega)).trans ?_
    exact (padded_of_lt x (⟨R.val * 128 + k.val, h⟩ : Fin 20000000)).symm
  · refine (pad_apply_of_not_inside (s := S20000000) (t := S20447232) ![0] ![447232] ![0] _ _ pads_S20000000_S20447232_04472320 h_S_ _
      (0 : Fin 1) ?_).trans ?_
    · intro hin
      have h3 := hin.2.2
      change (R.val * 128 + k.val - 0) / (0 + 1) < 20000000 at h3
      rw [Nat.sub_zero, Nat.zero_add, Nat.div_one] at h3
      exact h h3
    · refine Eq.trans ?_ (padded_of_le x _ (Nat.not_lt.mp h)).symm
      show ((((0#32 : BitVec 32).toInt : ℤ) : ℝ) : EReal) = 0
      simp

end Cert.KernelIdeal.Padded

end
-- ==== Proof.Blocks.lean ====
/-
  What the two input windows read. The host operations before the kernel lay each argument out as 159744 rows of 128
  lanes, zero-padded; window 0 stages the input's layout, window 1 the target's. Block `t` of a window is rows
  `4096 · t` to `4096 · t + 4095`, all 128 lanes, so its entry `(r, k)` is the padded column at
  `(4096 · t + r) · 128 + k`.
-/
import proofs.«167799_j43293270343860_1_alg».proof.Proof.Gen.KernelIdeal.Frame
import proofs.«167799_j43293270343860_1_alg».proof.Proof.Padded
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Cert.KernelIdeal.Padded Idealize.ShloMosaic Idealize.ShloMosaic.TcCoe
open Idealize.ShloMosaic.ValueIdx Idealize.SL.Sem Idealize.ShloMosaic.StableHlo

variable (m : (ℓ : Loc nD τ sig) → Buf (Elt Ideal) ℓ)

/-- The array window 0 stages, as the kernel finds it: the input argument laid out. -/
theorem V_input (c : Dev nD) :
    (V m c main_v4 : S159744x128.Idx → EReal) = laid (m ((c : Thread nD τ).loc main_arg0)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The array window 1 stages: the target argument laid out. -/
theorem V_target (c : Dev nD) :
    (V m c main_v5 : S159744x128.Idx → EReal) = laid (m ((c : Thread nD τ).loc main_arg1)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Both windows' block at point `t` starts at row `4096 · t`, lane `0` — decided over the grid. -/
theorem index_facts : ∀ t : Fin cfg0.N, (win0_0.index t 0 = t.val ∧ win0_0.index t 1 = 0) ∧ (win0_1.index t 0 = t.val ∧ win0_1.index t 1 = 0) :=
  (by decide +kernel : ∀ t : Fin grid0.N, (win0_0.index t 0 = t.val ∧ win0_0.index t 1 = 0) ∧ (win0_1.index t 0 = t.val ∧ win0_1.index t 1 = 0))

/-- Entry `(r, k)` of the input block at point `t`. -/
theorem input_block_apply (c : Dev nD) (t : Fin cfg0.N) (r : Fin 4096) (k : Fin 128) :
    (iblk m c 0 t : Vec Ideal S4096x128 .f32) (ix2 r k)
      = padded (m ((c : Thread nD τ).loc main_arg0)) ((t.val * 4096 + r.val) * 128 + k.val) := by
  have hN : t.val < 39 := lt_of_lt_of_eq t.isLt (show cfg0.N = 39 from N_0)
  have hR : t.val * 4096 + r.val < 159744 := by have := r.isLt; omega
  have hi := (index_facts t).1
  unfold iblk
  rw [View.read_apply]
  show (V m c main_v4 : S159744x128.Idx → EReal) _ = _
  refine (congrArg (V m c main_v4 : S159744x128.Idx → EReal)
    (?_ : _ = ix2 (⟨t.val * 4096 + r.val, hR⟩ : Fin 159744) k)).trans ?_
  · funext a
    apply Fin.ext
    match a with
    | ⟨0, _⟩ => show win0_0.index t 0 * 4096 + 1 * r.val = t.val * 4096 + r.val; rw [hi.1]; omega
    | ⟨1, _⟩ => show win0_0.index t 1 * 128 + 1 * k.val = k.val; rw [hi.2]; omega
  · rw [V_input m c]
    exact laid_apply _ (⟨t.val * 4096 + r.val, hR⟩ : Fin 159744) k

/-- Entry `(r, k)` of the target block at point `t`. -/
theorem target_block_apply (c : Dev nD) (t : Fin cfg0.N) (r : Fin 4096) (k : Fin 128) :
    (iblk m c 1 t : Vec Ideal S4096x128 .f32) (ix2 r k)
      = padded (m ((c : Thread nD τ).loc main_arg1)) ((t.val * 4096 + r.val) * 128 + k.val) := by
  have hN : t.val < 39 := lt_of_lt_of_eq t.isLt (show cfg0.N = 39 from N_0)
  have hR : t.val * 4096 + r.val < 159744 := by have := r.isLt; omega
  have hi := (index_facts t).2
  unfold iblk
  rw [View.read_apply]
  show (V m c main_v5 : S159744x128.Idx → EReal) _ = _
  refine (congrArg (V m c main_v5 : S159744x128.Idx → EReal)
    (?_ : _ = ix2 (⟨t.val * 4096 + r.val, hR⟩ : Fin 159744) k)).trans ?_
  · funext a
    apply Fin.ext
    match a with
    | ⟨0, _⟩ => show win0_1.index t 0 * 4096 + 1 * r.val = t.val * 4096 + r.val; rw [hi.1]; omega
    | ⟨1, _⟩ => show win0_1.index t 1 * 128 + 1 * k.val = k.val; rw [hi.2]; omega
  · rw [V_target m c]
    exact laid_apply _ (⟨t.val * 4096 + r.val, hR⟩ : Fin 159744) k

end Cert.KernelIdeal.Blocks

end
-- ==== Proof.BlockSum.lean ====
/-
  Summing a sequence that vanishes from `n` on, block by block. Cut `0, 1, 2, …` into `T` consecutive blocks of
  `R` rows of `C` entries; if the blocks reach at least as far as `n`, the sum over all blocks, rows and entries is
  the sum of the first `n` terms: position `(t, r, l)` is the natural number `(t·R + r)·C + l`, each number below
  `T·R·C` is met exactly once, and the terms from `n` on add nothing. Only commutativity and associativity of the
  addition are used, so the statement holds in any commutative monoid — the extended reals among them.
-/
import Mathlib.Algebra.BigOperators.Fin
import Mathlib.Algebra.BigOperators.Intervals
import Mathlib.Logic.Equiv.Fin.Basic

namespace Cert.Loss

open Finset

variable {M : Type*} [AddCommMonoid M]

/-- A sum over `a·b` consecutive naturals is the double sum over `a` groups of `b`. -/
theorem sum_fin_mul (a b : ℕ) (g : ℕ → M) :
    ∑ k : Fin (a * b), g k.val = ∑ i : Fin a, ∑ j : Fin b, g (i.val * b + j.val) := by
  rw [← finProdFinEquiv.sum_comp, Fintype.sum_prod_type]
  refine Finset.sum_congr rfl fun i _ => Finset.sum_congr rfl fun j _ => ?_
  congr 1
  show j.val + b * i.val = i.val * b + j.val
  rw [Nat.mul_comm, Nat.add_comm]

/-- Terms that vanish from `n` on add nothing to a longer sum. -/
theorem sum_fin_of_le (n N : ℕ) (hN : n ≤ N) (g : ℕ → M) (hz : ∀ j, n ≤ j → g j = 0) :
    ∑ k : Fin N, g k.val = ∑ k : Fin n, g k.val := by
  obtain ⟨p, rfl⟩ := Nat.exists_eq_add_of_le hN
  rw [Fin.sum_univ_eq_sum_range (fun k => g k) (n + p), Fin.sum_univ_eq_sum_range (fun k => g k) n, Finset.sum_range_add,
    Finset.sum_eq_zero (fun k _ => hz _ (Nat.le_add_right n k)), add_zero]

/-- The sum over `T` blocks of `R` rows of `C` entries of a sequence vanishing from `n ≤ T·(R·C)` on is the sum of
    its first `n` terms. -/
theorem sum_blocks (T R C n : ℕ) (hn : n ≤ T * (R * C)) (g : ℕ → M) (hz : ∀ j, n ≤ j → g j = 0) :
    ∑ t ∈ Finset.range T, ∑ r : Fin R, ∑ l : Fin C, g ((t * R + r.val) * C + l.val) = ∑ k : Fin n, g k.val := by
  rw [Finset.sum_range]
  have h1 : ∀ t : Fin T, ∑ r : Fin R, ∑ l : Fin C, g ((t.val * R + r.val) * C + l.val)
      = ∑ q : Fin (R * C), g (t.val * (R * C) + q.val) := fun t => by
    rw [sum_fin_mul R C (fun q => g (t.val * (R * C) + q))]
    refine Finset.sum_congr rfl fun r _ => Finset.sum_congr rfl fun l _ => ?_
    congr 1
    rw [Nat.add_mul, Nat.mul_assoc, Nat.add_assoc]
  rw [Finset.sum_congr rfl fun t _ => h1 t, ← sum_fin_mul T (R * C) g]
  exact sum_fin_of_le n _ hn g hz

end Cert.Loss
-- ==== Proof.Totals.lean ====
/-
  The law that joins the two programs. The kernel adds up 39 block totals, each a double sum over 4096 rows and 128
  lanes of the weighted squared difference of the two zero-padded columns; the reference adds the weighted squared
  differences of the 20000000 rows themselves. The blocks, rows and lanes enumerate the naturals below
  39 · 4096 · 128 = 20447232 once each, and from 20000000 on both padded columns are zero, where the summand is zero;
  so the two sums agree. Nothing but commutativity and associativity of the addition of extended reals is used:
  no entry needs to be finite.
-/
import proofs.«167799_j43293270343860_1_alg».proof.Proof.Padded
import proofs.«167799_j43293270343860_1_alg».proof.Proof.Weighted
import proofs.«167799_j43293270343860_1_alg».proof.Proof.BlockSum

noncomputable section

namespace Cert.KernelIdeal.Totals

open Cert.KernelIdeal Cert.KernelIdeal.Padded Cert.Loss Idealize.ShloMosaic Idealize.ShloMosaic.ValueIdx

/-- The summand at the natural number `j`: the weighted squared difference of the two padded columns there. -/
def term (x0 x1 : S20000000x1.Idx → EReal) (j : ℕ) : EReal := wsq (F := Ideal) (padded x0 j) (padded x1 j)

/-- From 20000000 on it is zero. -/
theorem term_of_le (x0 x1 : S20000000x1.Idx → EReal) (j : ℕ) (h : 20000000 ≤ j) : term x0 x1 j = 0 := by
  unfold term
  rw [padded_of_le x0 j h, padded_of_le x1 j h]
  exact wsq_zero

/-- The total of block `t` of an input column `x0` and a target column `x1`, both continued by zeros. -/
def blockTotal (x0 x1 : S20000000x1.Idx → EReal) (t : ℕ) : EReal :=
  ∑ r : Fin 4096, ∑ k : Fin 128,
    wsq (F := Ideal) (padded x0 ((t * 4096 + r.val) * 128 + k.val)) (padded x1 ((t * 4096 + r.val) * 128 + k.val))

/-- THE LAW: the 39 block totals add up to the sum over the 20000000 rows. -/
theorem sum_blockTotal (x0 x1 : S20000000x1.Idx → EReal) :
    ∑ t ∈ Finset.range 39, blockTotal x0 x1 t
      = ∑ a : Fin 20000000, wsq (F := Ideal) (x0 (ix2 a (0 : Fin 1))) (x1 (ix2 a (0 : Fin 1))) := by
  refine (sum_blocks 39 4096 128 20000000 (by norm_num) (term x0 x1) (term_of_le x0 x1)).trans ?_
  refine Finset.sum_congr rfl fun a _ => ?_
  unfold term
  rw [padded_of_lt x0 a, padded_of_lt x1 a]

end Cert.KernelIdeal.Totals

end
-- ==== Proof.Accum.lean ====
/-
  The accumulator over the grid. Point `t` adds the total of its blocks: the double sum, over 4096 rows and 128 lanes,
  of the weighted squared difference of the two padded columns at `(4096 · t + r) · 128 + k`. The first point starts from
  the zero it stores, every later point from what the point before left, so after point `n` the one entry holds the sum
  of the totals of points `0 … n` — by induction on the point. The entry is written back once, after the last point,
  and its block is the whole `[1, 1]` result array.
-/
import proofs.«167799_j43293270343860_1_alg».proof.Proof.Gen.KernelIdeal.Frame
import proofs.«167799_j43293270343860_1_alg».proof.Proof.Pieces
import proofs.«167799_j43293270343860_1_alg».proof.Proof.Payload
import proofs.«167799_j43293270343860_1_alg».proof.Proof.Blocks
import proofs.«167799_j43293270343860_1_alg».proof.Proof.Totals
import Idealize.ShloMosaic.Lib.Pipeline.Value

noncomputable section

namespace Cert.KernelIdeal.Accum

open Cert.KernelIdeal Cert.KernelIdeal.Gen Cert.KernelIdeal.Padded Cert.KernelIdeal.Blocks Cert.KernelIdeal.Pieces
open Cert.KernelIdeal.Payload Cert.KernelIdeal.Totals Cert.Loss
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The double sum over the two windows' blocks at point `t` is block `t`'s total of the arguments. -/
theorem point_total (c : Dev nD) (t : Fin cfg0.N) :
    ∑ r : Fin 4096, ∑ k : Fin 128, wsq (F := Ideal) ((iblk m c 0 t : Vec Ideal S4096x128 .f32) (ix2 r k))
        ((iblk m c 1 t : Vec Ideal S4096x128 .f32) (ix2 r k))
      = blockTotal (m ((c : Thread nD τ).loc main_arg0)) (m ((c : Thread nD τ).loc main_arg1)) t.val := by
  unfold blockTotal
  refine Finset.sum_congr rfl fun r _ => Finset.sum_congr rfl fun k _ => ?_
  rw [input_block_apply m c t r k, target_block_apply m c t r k]

/-- After point `n` the accumulator's entry is the sum of the totals of blocks `0 … n`. -/
theorem outsAt_eq (c : Dev nD) : ∀ (n : ℕ) (h : n < cfg0.N) (y : S1x1.Idx),
    outsAt0 m c n h y
      = ∑ t ∈ Finset.range (n + 1), blockTotal (m ((c : Thread nD τ).loc main_arg0)) (m ((c : Thread nD τ).loc main_arg1)) t
  | 0, h, y => by
    have e := (outsAt0_A m c ⟨0, h⟩ rfl).trans
      (out_first c _ _ _ _ _ _ _ _ (iblk m c 0 ⟨0, h⟩) (iblk m c 1 ⟨0, h⟩))
    refine (congrFun e y).trans ?_
    refine (pay2_apply (iblk m c 1 ⟨0, h⟩) (iblk m c 0 ⟨0, h⟩) (k0_pay1 (F := Ideal)) y).trans ?_
    rw [pay1_apply, zero_add, Finset.sum_range_one]
    exact point_total m c ⟨0, h⟩
  | n + 1, h, y => by
    have hN : cfg0.N = 39 := N_0
    have hB : ¬(⟨n + 1, h⟩ : Fin cfg0.N).val % 39 = 0 := by dsimp only; omega
    have e := (outsAt0_B m c ⟨n + 1, h⟩ hB).trans
      (out_later c _ _ _ _ _ _ _ _ (iblk m c 0 ⟨n + 1, h⟩) (iblk m c 1 ⟨n + 1, h⟩) _)
    refine (congrFun e y).trans ?_
    refine (pay2_apply (iblk m c 1 ⟨n + 1, h⟩) (iblk m c 0 ⟨n + 1, h⟩) _ y).trans ?_
    rw [Finset.sum_range_succ _ (n + 1)]
    exact congrArg₂ (· + ·) (outsAt_eq c n (Nat.lt_of_succ_lt h) y) (point_total m c ⟨n + 1, h⟩)

/-- The last grid point. -/
def lastPt : Fin cfg0.N := ⟨38, lt_of_lt_of_eq (by norm_num : 38 < 39) N_0.symm⟩

/-- The accumulator after the last point, as contents of the `[1, 1]` result array: its one block is the array. -/
abbrev result (c : Dev nD) : Buf (Elt Ideal) ((c : Thread nD τ).loc main_v6) := outsAt0 m c 38 lastPt.isLt

/-- Its entry: the sum of all 39 block totals. -/
theorem result_apply (c : Dev nD) (y : S1x1.Idx) :
    result m c y = ∑ t ∈ Finset.range 39, blockTotal (m ((c : Thread nD τ).loc main_arg0)) (m ((c : Thread nD τ).loc main_arg1)) t :=
  outsAt_eq m c 38 lastPt.isLt y

/-- The one write-back, after the last point, writes the accumulator: block `(0, 0)` of a `[1, 1]` array read through
    zero offsets is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 39 := N_0
  have h38 : t.val = 38 := by have := (flush0_2 t).mp hf; have := t.isLt; omega
  obtain rfl : t = lastPt := Fin.ext h38
  show (cfg0.win 2).cut (grid0.coords lastPt) ((dats m 0 c).after 2 lastPt) = _
  rw [after0_2]
  have hz' : (fun a => win0_2.index lastPt a * main_v6.ty.shape.size a) = fun _ => 0 :=
    funext fun a => by fin_cases a <;> decide +kernel
  exact (Memref.read_access_unit_zero (Elt Ideal) main_v6 hz' (fun a => by rw [congrFun hz' a]; simp) (result m c)).symm

/-- So the result array ends holding the accumulator after the last point. -/
theorem final_acc (c : Dev nD) : (dats m 0 c).arrAt 2 cfg0.N = result m c :=
  (dats m 0 c).arrAt_eq_of_cover 2 (result m c) (flushed_eq m c) fun i =>
    ⟨lastPt, (flush0_2 lastPt).mpr rfl, by
      show i ∈ ((View.whole main_v6).slice (win0_2.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_2.index lastPt 0 * win0_2.size 0 ≤ (i 0 : Nat) ∧ (i 0 : Nat) < win0_2.index lastPt 0 * win0_2.size 0 + win0_2.xsize (grid0.coords lastPt) 0
                  rw [show win0_2.index lastPt 0 * win0_2.size 0 = 0 from by decide +kernel, show win0_2.xsize (grid0.coords lastPt) 0 = 1 from by decide +kernel]; omega
      | ⟨1, _⟩ => show win0_2.index lastPt 1 * win0_2.size 1 ≤ (i 1 : Nat) ∧ (i 1 : Nat) < win0_2.index lastPt 1 * win0_2.size 1 + win0_2.xsize (grid0.coords lastPt) 1
                  rw [show win0_2.index lastPt 1 * win0_2.size 1 = 0 from by decide +kernel, show win0_2.xsize (grid0.coords lastPt) 1 = 1 from by decide +kernel]; omega⟩

end Cert.KernelIdeal.Accum

end
-- ==== Proof.Spec.lean ====
/-
  The result both programs compute, as one function of the two argument columns: the weighted squared differences of the
  20000000 rows are summed, the sum is divided by 20000000, and the square root is taken — the division and the root
  being the host's, applied by both programs to their sum and never opened here.
-/
import proofs.«167799_j43293270343860_1_alg».proof.Proof.Weighted
import Idealize.ShloMosaic.Lib.ValueIdx

noncomputable section

namespace Cert.Loss

open Idealize.ShloMosaic Idealize.ShloMosaic.ValueIdx

/-- The shared tail: a scalar divided by the constant 20000000, then its square root. -/
def meanRoot (s : (⟨0, ![]⟩ : Shape).Idx → EReal) : (⟨0, ![]⟩ : Shape).Idx → EReal :=
  Host.sqrt (F := Ideal) (φ := .f32) (Host.divf (F := Ideal) (φ := .f32) s (constant (F := Ideal) ⟨0, ![]⟩ .f32 0x4B989680#32))

/-- The sum of the weighted squared differences over all rows. -/
def rowSum (x0 x1 : (⟨2, ![20000000, 1]⟩ : Shape).Idx → EReal) : EReal :=
  ∑ a : Fin 20000000, wsq (F := Ideal) (x0 (ix2 a (0 : Fin 1))) (x1 (ix2 a (0 : Fin 1)))

/-- THE SPECIFICATION: the root of the mean of the weighted squared differences. -/
def loss (x0 x1 : (⟨2, ![20000000, 1]⟩ : Shape).Idx → EReal) : (⟨0, ![]⟩ : Shape).Idx → EReal :=
  meanRoot fun _ => rowSum x0 x1

end Cert.Loss

end
-- ==== Proof.KernelRun.lean ====
/-
  The kernel's run, read. After the grid the `[1, 1]` result array holds the accumulator; the host operations after the
  kernel take its one entry, divide by 20000000 and take the square root. The entry is the sum of the 39 block totals,
  which is the sum over the 20000000 rows; so the kernel's result is the specification, and its arguments end as they
  were launched.
-/
import proofs.«167799_j43293270343860_1_alg».proof.Proof.Gen.KernelIdeal.Frame
import proofs.«167799_j43293270343860_1_alg».proof.Proof.Accum
import proofs.«167799_j43293270343860_1_alg».proof.Proof.Totals
import proofs.«167799_j43293270343860_1_alg».proof.Proof.Spec
import Idealize.ShloMosaic.Lib.Pipeline.Value
import Idealize.ShloMosaic.Lib.StableHlo.Run
import Idealize.ShloMosaic.Lib.Tactic

noncomputable section

namespace Cert.KernelIdeal.Run

open Cert.KernelIdeal Cert.KernelIdeal.Gen Cert.KernelIdeal.Accum Cert.KernelIdeal.Totals Cert.Loss
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- Every entry of the accumulator after the last point is the sum over the rows. -/
theorem result_rowSum (c : Dev nD) (y : S1x1.Idx) :
    result m c y = rowSum (m ((c : Thread nD τ).loc main_arg0)) (m ((c : Thread nD τ).loc main_arg1)) :=
  (result_apply m c y).trans (sum_blockTotal _ _)

/-- The host operations after the kernel leave the specification in the result scalar. -/
theorem tail_eq (c : Dev nD) :
    Pipeline.afterTail₀ cfgs (dats m) 0 (V0 m) [hostOps1] c main_v9
      = loss (m ((c : Thread nD τ).loc main_arg0)) (m ((c : Thread nD τ).loc main_arg1)) := by
  unfold Pipeline.afterTail₀
  show StableHlo.after hostOps1 _ (Proc.devRef .tc main_v9) = _
  after_results
  have hw := (Pipeline.withArrays_arr spec0 launch0.win.arr_inj c (V0 m c) (fun w => (dats m 0 c).arrAt w cfg0.N) 2).trans (final_acc m c)
  unfold loss meanRoot
  refine congrArg (fun s : S_.Idx → EReal => Host.sqrt (F := Ideal) (φ := .f32)
    (Host.divf (F := Ideal) (φ := .f32) s (constant (F := Ideal) S_ .f32 0x4B989680#32))) (funext fun i => ?_)
  refine (congrFun (congrArg (fun A : S1x1.Idx → EReal => shapeCast S_ A shapeCasts_S1x1_S_) hw) i).trans ?_
  exact result_rowSum m c _

/-- THE KERNEL'S RUN: every weakly fair execution terminates with the result scalar at the specification of the
    arguments, and the arguments unchanged. -/
theorem run : θ_run defs (onTc (τ := τ) (main (F := Ideal))) ⟨m, fun _ => 0, ρ⟩ fun r => ∀ c : Dev nD,
      r.2.mem ((c.tc : Thread nD τ).loc main_v9) = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Run

end
-- ==== Proof.RefSum.lean ====
/-
  The reference, read one operation at a time. Its element-wise operations compute, at row `a`, the weighted squared
  difference of the two arguments' entries there; its reduction over both axes is, on the extended reals, zero plus the
  sum of those over every index of the `[20000000, 1]` array, that is over the 20000000 rows; the division and the square
  root are the shared tail. So the reference's result is the specification.
-/
import proofs.«167799_j43293270343860_1_alg».proof.Proof.Gen.ReferenceIdeal.Read
import proofs.«167799_j43293270343860_1_alg».proof.Proof.Spec
import Idealize.ShloMosaic.Lib.ValueIdx
import Idealize.ShloMosaic.PureOps.Ideal.Laws

noncomputable section

namespace Cert.ReferenceIdeal.RefSum

open Cert.ReferenceIdeal Cert.ReferenceIdeal.Read Cert.Loss Idealize.ShloMosaic Idealize.ShloMosaic.ValueIdx

/-- At a row the reference's squared product is the weighted squared difference of the two entries. -/
theorem sq_apply (x0 x1 : (⟨S20000000x1, .f32⟩ : BufTy).Contents (Elt Ideal)) (j : S20000000x1.Idx) :
    val_main_v9 (F := Ideal) x0 x1 j = wsq (F := Ideal) (x0 j) (x1 j) := rfl

/-- The reference's sum is the sum over the rows. -/
theorem sum_apply (x0 x1 : (⟨S20000000x1, .f32⟩ : BufTy).Contents (Elt Ideal)) (i : S_.Idx) :
    val_main_v10 (F := Ideal) x0 x1 i = rowSum x0 x1 := by
  rw [val_main_v10_apply]
  show Ideal.ofBits .f32 0x00000000#32 + _ = _
  rw [Ideal.ofBits_zero_f32, zero_add, sum_idx2]
  unfold rowSum
  refine Finset.sum_congr rfl fun a _ => ?_
  rw [Fin.sum_univ_one]
  exact sq_apply x0 x1 (ix2 a (0 : Fin 1))

/-- The reference's result is the specification. -/
theorem result_eq (x0 x1 : (⟨S20000000x1, .f32⟩ : BufTy).Contents (Elt Ideal)) :
    val_main_v12 (F := Ideal) x0 x1 = loss x0 x1 := by
  show Host.sqrt (F := Ideal) (Host.divf (F := Ideal) (val_main_v10 (F := Ideal) x0 x1) (val_main_cst_5 (F := Ideal))) = meanRoot (fun _ => rowSum x0 x1)
  unfold meanRoot
  refine congrArg (fun s : S_.Idx → EReal => Host.sqrt (F := Ideal) (φ := .f32)
    (Host.divf (F := Ideal) (φ := .f32) s (constant (F := Ideal) S_ .f32 0x4B989680#32))) (funext fun i => ?_)
  exact sum_apply x0 x1 i

end Cert.ReferenceIdeal.RefSum

end
-- ==== Proof.lean ====
/- The proof of `Cert.Claim`. The kernel computes a weighted root-mean-square loss of two `[20000000, 1]` columns:
   it flattens each, pads it with zeros to 39 · 4096 · 128 entries, and runs a grid of 39 points, each adding the
   total of one 4096 × 128 block of weighted squared differences into a one-entry accumulator (zeroed at the first
   point, written back after the last); the host then divides by 20000000 and takes the square root. The reference
   sums the weighted squared differences of the 20000000 rows directly and applies the same division and root.
   On the extended reals both results are one function of the arguments (Proof/Spec.lean): a padded pair of zeros
   contributes zero whatever its weight, and the blocks, rows and lanes enumerate the padded positions once each, so the
   39 block totals add up to the sum over the rows by commutativity and associativity alone (Proof/Totals.lean) —
   the inputs' finiteness is never used. The three frames are the generated ones (the reference's frame is its generated
   run with the result dropped); the idealization rewrote nothing, so `preserves` is `True`. -/
import proofs.«167799_j43293270343860_1_alg».proof.Defs
import proofs.«167799_j43293270343860_1_alg».proof.Proof.Gen.Kernel
import proofs.«167799_j43293270343860_1_alg».proof.Proof.Gen.Kernel.Skeleton
import proofs.«167799_j43293270343860_1_alg».proof.Proof.Gen.Kernel.Launch
import proofs.«167799_j43293270343860_1_alg».proof.Proof.Gen.Kernel.Points
import proofs.«167799_j43293270343860_1_alg».proof.Proof.Gen.Kernel.Frame
import proofs.«167799_j43293270343860_1_alg».proof.Proof.Gen.KernelIdeal
import proofs.«167799_j43293270343860_1_alg».proof.Proof.Gen.KernelIdeal.Skeleton
import proofs.«167799_j43293270343860_1_alg».proof.Proof.Gen.KernelIdeal.Launch
import proofs.«167799_j43293270343860_1_alg».proof.Proof.Gen.KernelIdeal.Points
import proofs.«167799_j43293270343860_1_alg».proof.Proof.Gen.KernelIdeal.Frame
import proofs.«167799_j43293270343860_1_alg».proof.Proof.Gen.ReferenceIdeal
import proofs.«167799_j43293270343860_1_alg».proof.Proof.Gen.ReferenceIdeal.Run
import proofs.«167799_j43293270343860_1_alg».proof.Proof.Gen.ReferenceIdeal.Read
import proofs.«167799_j43293270343860_1_alg».proof.Proof.Gen.Pre_finite_inputs
import proofs.«167799_j43293270343860_1_alg».proof.Proof.KernelRun
import proofs.«167799_j43293270343860_1_alg».proof.Proof.RefSum
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the specification of arguments that agree: the kernel by its run read through the
    accumulator and the host tail, the reference by its operations read one at a time. -/
theorem algebraic : Cert.algebraic_KernelIdeal_ReferenceIdeal := by
  intro m ρ m' ρ' _ hagree
  refine ⟨fun c => Cert.Loss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v12_eq _ _).trans (Cert.ReferenceIdeal.RefSum.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
